-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S8x1024 : Shape := ⟨2, ![8, 1024]⟩
abbrev S8x1024x1024 : Shape := ⟨3, ![8, 1024, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_

variable [Facts]

def fn_part1 {F : FTy → Type} [FloatOps F] (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  main_v18

def fn {F : FTy → Type} [FloatOps F] (main_arg0 : FVec F S65536x1024 .f32) (main_arg1 : FVec F S8x1024 .f32) (main_arg2 : FVec F S8x1024x1024 .f32) (main_arg3 : FVec F S8x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S8x1024 .f32 := Host.absf main_arg3
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_v13 main_v16
-- ==== Kernel.lean ====
abbrev S65536x1024 : Shape := ⟨2, ![65536, 1024]⟩
abbrev S8x1024 : Shape := ⟨2, ![8, 1024]⟩
abbrev S8x1024x1024 : Shape := ⟨3, ![8, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 11
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S8x1024, .f32⟩
  | .hbm, ⟨2, _⟩ => ⟨S8x1024x1024, .f32⟩
  | .hbm, ⟨3, _⟩ => ⟨S8x1024, .f32⟩
  | .hbm, ⟨4, _⟩ => ⟨S1x1024x1024, .f32⟩
  | .hbm, ⟨5, _⟩ => ⟨S1024x1024, .f32⟩
  | .hbm, ⟨6, _⟩ => ⟨S1x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x1024x1024_S1x1024x1024_0_0_0 : S8x1024x1024.Slices ![0, 0, 0] S1x1024x1024
  shapeCasts_S1x1024x1024_S1024x1024 : S1x1024x1024.ShapeCasts S1024x1024
  slices_S8x1024_S1x1024_0_0 : S8x1024.Slices ![0, 0] S1x1024
  shapeCasts_S1x1024_S1024 : S1x1024.ShapeCasts S1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S8x1024 : Shape := ⟨2, ![8, 1024]⟩
abbrev S8x1024x1024 : Shape := ⟨3, ![8, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x1024, .f32⟩
  | .hbm, ⟨2, _⟩ => ⟨S8x1024x1024, .f32⟩
  | .hbm, ⟨3, _⟩ => ⟨S8x1024, .f32⟩
  | .hbm, ⟨4, _⟩ => ⟨S1x1024x1024, .f32⟩
  | .hbm, ⟨5, _⟩ => ⟨S1024x1024, .f32⟩
  | .hbm, ⟨6, _⟩ => ⟨S65536x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S65536x1024, .f32⟩
  | .hbm, ⟨11, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  slices_S8x1024x1024_S1x1024x1024_0_0_0 : S8x1024x1024.Slices ![0, 0, 0] S1x1024x1024
  shapeCasts_S1x1024x1024_S1024x1024 : S1x1024x1024.ShapeCasts S1024x1024
  slices_S8x1024_S1x1024_0_0 : S8x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  dot_S65536x1024_S1024x1024_S65536x1024_1_1_0_0_n_n_wf : DotDims.WF S65536x1024 S1024x1024 S65536x1024 [1] [1] [0] [0] [] []

variable [Facts₀]

def dot_S65536x1024_S1024x1024_S65536x1024_1_1_0_0_n_n : DotDims S65536x1024 S1024x1024 S65536x1024 where
  lhsContracting := [1]
  rhsContracting := [1]
  lhsNonContracting := [0]
  rhsNonContracting := [0]
  lhsBatch := []
  rhsBatch := []
  wf := dot_S65536x1024_S1024x1024_S65536x1024_1_1_0_0_n_n_wf

class Facts : Prop extends Facts₀ where

variable [Facts]
-- ==== Proof.Dense.lean ====
/-
  The function both programs compute, stated once over the three argument arrays that matter.

  The activations `x` are a 65536 × 1024 array, the stacked weights `W` an 8 × 1024 × 1024 array (adaptor, output
  feature, input feature) and the stacked biases `b` an 8 × 1024 array (adaptor, output feature). Only adaptor 0 is
  used: entry (p, q) of the result is the inner product of row p of `x` with row q of `W[0]` — the product
  `x · W[0]ᵀ` — plus `b[0][q]`. On the extended reals this is a finite sum of products followed by one addition; no
  rearrangement of the sum is needed to join the two programs, so no finiteness of the inputs is used.
-/
import Idealize.ShloMosaic.PureOps.Ideal
import Idealize.ShloMosaic.Lib.ValueIdx

noncomputable section

open scoped BigOperators

namespace Cert.Dense

open Idealize.ShloMosaic Idealize.ShloMosaic.ValueIdx

/-- Entry (p, q) of `x · W[0]ᵀ + b[0]`: the sum over the input feature k of `x[p, k] · W[0, q, k]`, plus `b[0, q]`. -/
def entry (x : (⟨2, ![65536, 1024]⟩ : Shape).Idx → EReal) (W : (⟨3, ![8, 1024, 1024]⟩ : Shape).Idx → EReal)
    (b : (⟨2, ![8, 1024]⟩ : Shape).Idx → EReal) (p : Fin 65536) (q : Fin 1024) : EReal :=
  (∑ k : Fin 1024, x (ix2 p k) * W (ix3 (0 : Fin 8) q k)) + b (ix2 (0 : Fin 8) q)

/-- The whole result array: at an index its entry at the index's two coordinates. -/
def out (x : (⟨2, ![65536, 1024]⟩ : Shape).Idx → EReal) (W : (⟨3, ![8, 1024, 1024]⟩ : Shape).Idx → EReal)
    (b : (⟨2, ![8, 1024]⟩ : Shape).Idx → EReal) : (⟨2, ![65536, 1024]⟩ : Shape).Idx → EReal :=
  fun i => entry x W b (i 0) (i 1)

/-- At the index built from coordinates (p, q) the array reads entry (p, q). -/
theorem out_ix2 (x : (⟨2, ![65536, 1024]⟩ : Shape).Idx → EReal) (W : (⟨3, ![8, 1024, 1024]⟩ : Shape).Idx → EReal)
    (b : (⟨2, ![8, 1024]⟩ : Shape).Idx → EReal) (p : Fin 65536) (q : Fin 1024) :
    out x W b (ix2 p q) = entry x W b p q := rfl

end Cert.Dense

end
-- ==== Proof.RefDense.lean ====
/-
  The reference program computes `x · W[0]ᵀ + b[0]`.

  Its host operations are: slice adaptor 0 out of `W` and drop the unit axis; contract axis 1 of `x` with axis 1 of
  that matrix; slice adaptor 0 out of `b`, drop the unit axis, and lay the resulting vector along every row; add.
  Read at an index (p, q), the contraction is the sum over k of `x[p, k]` times the sliced matrix at (q, k), and the
  sliced matrix at (q, k) is `W[0, q, k]` because the row-major position q · 1024 + k of the 1 × 1024 × 1024 slice
  splits back into (0, q, k); the broadcast bias at (p, q) is `b[0, q]`.
-/
import proofs.«169711_j240518168737_2_alg».proof.Proof.Gen.ReferenceIdeal.Read
import proofs.«169711_j240518168737_2_alg».proof.Proof.Dense

noncomputable section

open scoped BigOperators

namespace Cert.ReferenceIdeal.RefDense

open Cert.ReferenceIdeal Cert.ReferenceIdeal.Read Idealize.ShloMosaic Idealize.ShloMosaic.ValueIdx

/-- The contraction reads `x` at row p, column k. -/
theorem lhs_index (p : Fin 65536) (q k : Fin 1024) : lidx_main_v2 (ix2 p q) k = ix2 p k :=
  funext fun a => Fin.ext (by match a with | ⟨0, _⟩ => rfl | ⟨1, _⟩ => rfl)

/-- The contraction reads the sliced, reshaped weight at (q, k), which is `W` at (0, q, k): the flat position
    q · 1024 + k divides back into q and k. -/
theorem weight_index (p : Fin 65536) (q k : Fin 1024) :
    idx_main_v0 (idx_main_v1 (ridx_main_v2 (ix2 p q) k)) = ix3 (0 : Fin 8) q k :=
  funext fun a => Fin.ext (by
    have hq := q.isLt
    have hk := k.isLt
    match a with
    | ⟨0, _⟩ => rfl
    | ⟨1, _⟩ => show (q.val * 1024 + k.val) / 1024 % 1024 = q.val; omega
    | ⟨2, _⟩ => show (q.val * 1024 + k.val) % 1024 = k.val; omega)

/-- The bias laid along the rows reads `b` at (0, q) whatever the row. -/
theorem bias_index (p : Fin 65536) (q : Fin 1024) :
    idx_main_v3 (idx_main_v4 (idx_main_v5 (idx_main_v6 (ix2 p q)))) = ix2 (0 : Fin 8) q :=
  funext fun a => Fin.ext (by
    have hq := q.isLt
    match a with
    | ⟨0, _⟩ => rfl
    | ⟨1, _⟩ => show q.val % 1024 = q.val; omega)

/-- The reference's result, as a function of its arguments, is `x · W[0]ᵀ + b[0]`. -/
theorem result_eq (x0 : (⟨S65536x1024, .f32⟩ : BufTy).Contents (Elt Ideal)) (x2 : (⟨S8x1024x1024, .f32⟩ : BufTy).Contents (Elt Ideal))
    (x3 : (⟨S8x1024, .f32⟩ : BufTy).Contents (Elt Ideal)) :
    val_main_v7 (F := Ideal) x0 x2 x3 = Cert.Dense.out x0 x2 x3 := by
  funext i
  obtain ⟨p, q, rfl⟩ : ∃ (p : Fin 65536) (q : Fin 1024), i = ix2 p q := ⟨i 0, i 1, eq_ix2 i⟩
  rw [val_main_v7_apply, val_main_v2_apply, val_main_v6_apply, val_main_v5_apply, val_main_v4_apply, val_main_v3_apply,
    bias_index, Cert.Dense.out_ix2]
  simp only [val_main_v1_apply, val_main_v0_apply, lhs_index, weight_index]
  rfl

end Cert.ReferenceIdeal.RefDense

end
-- ==== Proof.BodyDense.lean ====
/-
  What the kernel body stores, entry by entry.

  At one grid point the body loads a 1024 × 1024 block of activations, the whole 1024 × 1024 weight matrix of adaptor 0
  (already narrowed to bf16 before the launch) and the 1 × 1024 bias row; it narrows the activations to bf16,
  contracts axis 1 of the activations with axis 1 of the weights on the matrix unit into a zero accumulator, adds the
  bias row laid along every row, and stores the result over the whole output block. On the extended reals a change
  of float format is the identity and a product accumulated into zero is the bare sum, so entry (p, q) of the stored
  block is the sum over k of activation (p, k) times weight (q, k), plus bias (0, q).
-/
import proofs.«169711_j240518168737_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The body's contraction: axis 1 of the left operand against axis 1 of the right one, no batch axes. -/
abbrev contraction := dot_S1024x1024_S1024x1024_S1024x1024_1_1_0_0_n_n

/-- The left operand is read on the output's row … -/
theorem lhs_row (i : S1024x1024.Idx) (z : contraction.contr.Idx) : (contraction.lhsIdx i z 0).val = (i 0).val := by
  unfold DotDims.lhsIdx
  rw [dif_neg (show ¬(0 : Fin S1024x1024.rank) ∈ contraction.lhsBatch by decide),
    dif_pos (show (0 : Fin S1024x1024.rank) ∈ contraction.lhsNonContracting by decide)]
  rfl

/-- … and at the contraction position's one coordinate; -/
theorem lhs_col (i : S1024x1024.Idx) (z : contraction.contr.Idx) :
    (contraction.lhsIdx i z 1).val = (z ⟨0, by decide⟩).val :=
  contraction.lhsIdx_val_of_single rfl i z

/-- the right operand is read on the row named by the output's column … -/
theorem rhs_row (i : S1024x1024.Idx) (z : contraction.contr.Idx) : (contraction.rhsIdx i z 0).val = (i 1).val := by
  unfold DotDims.rhsIdx
  rw [dif_neg (show ¬(0 : Fin S1024x1024.rank) ∈ contraction.rhsBatch by decide),
    dif_pos (show (0 : Fin S1024x1024.rank) ∈ contraction.rhsNonContracting by decide)]
  rfl

/-- … and at the contraction position's one coordinate. -/
theorem rhs_col (i : S1024x1024.Idx) (z : contraction.contr.Idx) :
    (contraction.rhsIdx i z 1).val = (z ⟨0, by decide⟩).val :=
  contraction.rhsIdx_val_of_single rfl i z

/-- Entry (p, q) of the matrix unit's product into a zero accumulator: the sum over k of left (p, k) times right (q, k)
    — the right operand is used transposed. -/
theorem product_entry (l r : FVec Ideal S1024x1024 .bf16) (p q : Fin 1024) :
    matmul contraction none l r (constant (F := Ideal) S1024x1024 .f32 0x00000000#32) (ix2 p q)
      = ∑ k : Fin 1024, l (ix2 p k) * r (ix2 q k) := by
  show FloatOps.matmul contraction none l r (constant (F := Ideal) S1024x1024 .f32 0x00000000#32) (ix2 p q) = _
  rw [Ideal.matmul_constant_zero_apply, ← Equiv.sum_comp (contrEquiv1 contraction 1024 rfl rfl).symm]
  refine Finset.sum_congr rfl fun k _ => ?_
  have hk := contrEquiv1_symm_val contraction 1024 rfl rfl k
  have el : contraction.lhsIdx (ix2 p q) ((contrEquiv1 contraction 1024 rfl rfl).symm k) = ix2 p k :=
    funext fun a => Fin.ext (by
      match a with
      | ⟨0, _⟩ => exact lhs_row _ _
      | ⟨1, _⟩ => exact (lhs_col _ _).trans hk)
  have er : contraction.rhsIdx (ix2 p q) ((contrEquiv1 contraction 1024 rfl rfl).symm k) = ix2 q k :=
    funext fun a => Fin.ext (by
      match a with
      | ⟨0, _⟩ => exact rhs_row _ _
      | ⟨1, _⟩ => exact (rhs_col _ _).trans hk)
  rw [el, er]

/-- The bias row laid along every row reads, at (p, q), the row's entry (0, q). -/
theorem bias_entry (v : FVec Ideal S1x1024 .f32) (p q : Fin 1024) :
    broadcastTo S1024x1024 v broadcasts_S1x1024_S1024x1024 (ix2 p q) = v (ix2 (0 : Fin 1) q) :=
  broadcastTo_apply v broadcasts_S1x1024_S1024x1024 (ix2 p q) (ix2 (0 : Fin 1) q) (fun a => by
    match a with
    | ⟨0, _⟩ => show (0 : Nat) = if (1 : Nat) = 1 then 0 else p.val; rw [if_pos rfl]
    | ⟨1, _⟩ => show q.val = if (1024 : Nat) = 1 then 0 else q.val; rw [if_neg (by decide)])

/-- ENTRY (p, q) OF WHAT THE BODY STORES, from the three blocks it loaded. -/
theorem stored_entry (x : Vec Ideal S1024x1024 .f32) (w : Vec Ideal S1024x1024 .bf16) (bias : Vec Ideal S1x1024 .f32)
    (p q : Fin 1024) :
    k0_pay1 (F := Ideal) x w bias (ix2 p q)
      = (∑ k : Fin 1024, x (ix2 p k) * w (ix2 q k)) + bias (ix2 (0 : Fin 1) q) := by
  unfold k0_pay1
  show addf _ _ (ix2 p q) = _
  rw [addf_apply, shapeCast_self, shapeCast_self, bias_entry, product_entry]
  rfl

end Cert.KernelIdeal.Body

end
-- ==== Proof.EntryArrays.lean ====
/-
  What the launch finds in the two arrays the host prepared.

  Before the kernel is launched the host slices adaptor 0 out of the stacked weights, drops the unit axis and narrows
  the matrix to bf16; and it slices adaptor 0 out of the stacked biases, drops the unit axis and puts it back as a
  leading one. Read at an index, on the extended reals (where the narrowing is the identity): the weight matrix at
  (q, k) is `W[0, q, k]`, and the bias row at (0, q) is `b[0, q]`. The reshapes are read through row-major
  positions: (0, q, k) of a 1 × 1024 × 1024 array and (q, k) of a 1024 × 1024 array both sit at q · 1024 + k.
-/
import proofs.«169711_j240518168737_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The weight matrix the launch stages, as the host's three operations of the stacked weights. -/
theorem weights_term (c : Dev nD) :
    @Eq (S1024x1024.Idx → EReal) (V m c main_v4)
      (truncf (F := Ideal) .bf16 (shapeCast S1024x1024
          (extractStridedSlice S1x1024x1024 ![0, 0, 0] (m ((c : Thread nD τ).loc main_arg2)) slices_S8x1024x1024_S1x1024x1024_0_0_0)
          shapeCasts_S1x1024x1024_S1024x1024) bitsLt_bf16_f32) := by
  dsimp only [Gen.V, Gen.hostOps0]
  after_results
  rfl

/-- The bias row the launch stages, as the host's three operations of the stacked biases. -/
theorem bias_term (c : Dev nD) :
    @Eq (S1x1024.Idx → EReal) (V m c main_v5)
      (shapeCast S1x1024 (shapeCast S1024
          (extractStridedSlice S1x1024 ![0, 0] (m ((c : Thread nD τ).loc main_arg3)) slices_S8x1024_S1x1024_0_0)
          shapeCasts_S1x1024_S1024) shapeCasts_S1024_S1x1024) := by
  dsimp only [Gen.V, Gen.hostOps0]
  after_results
  rfl

/-- The staged weight matrix at (q, k) is `W[0, q, k]`. -/
theorem weights_entry (c : Dev nD) (q k : Fin 1024) :
    (V m c main_v4 : S1024x1024.Idx → EReal) (ix2 q k)
      = (m ((c : Thread nD τ).loc main_arg2) : S8x1024x1024.Idx → EReal) (ix3 (0 : Fin 8) q k) := by
  rw [weights_term]
  rw [truncf_apply]
  have hq := q.isLt
  have hk := k.isLt
  refine (shapeCast_apply _ shapeCasts_S1x1024x1024_S1024x1024 (ix2 q k) (ix3 (0 : Fin 1) q k) ?_).trans ?_
  · rw [Shape.rowMajor_val_three, Shape.rowMajor_val_two]
    show (0 * 1024 + q.val) * 1024 + k.val = q.val * 1024 + k.val
    omega
  · exact extractStridedSlice_apply ![0, 0, 0] _ slices_S8x1024x1024_S1x1024x1024_0_0_0 (ix3 (0 : Fin 1) q k) (ix3 (0 : Fin 8) q k)
      (fun a => match a with
        | ⟨0, _⟩ => by show (0 : Nat) = 0 + 0; rfl
        | ⟨1, _⟩ => by show q.val = 0 + q.val; omega
        | ⟨2, _⟩ => by show k.val = 0 + k.val; omega)

/-- The staged bias row at (0, q) is `b[0, q]`. -/
theorem bias_entry (c : Dev nD) (q : Fin 1024) :
    (V m c main_v5 : S1x1024.Idx → EReal) (ix2 (0 : Fin 1) q)
      = (m ((c : Thread nD τ).loc main_arg3) : S8x1024.Idx → EReal) (ix2 (0 : Fin 8) q) := by
  rw [bias_term]
  have hq := q.isLt
  refine (shapeCast_apply _ shapeCasts_S1024_S1x1024 (ix2 (0 : Fin 1) q) (ix1 q) ?_).trans ?_
  · rw [Shape.rowMajor_val_one, Shape.rowMajor_val_two]
    show q.val = 0 * 1024 + q.val
    omega
  refine (shapeCast_apply _ shapeCasts_S1x1024_S1024 (ix1 q) (ix2 (0 : Fin 1) q) ?_).trans ?_
  · rw [Shape.rowMajor_val_two, Shape.rowMajor_val_one]
    show 0 * 1024 + q.val = q.val
    omega
  · exact extractStridedSlice_apply ![0, 0] _ slices_S8x1024_S1x1024_0_0 (ix2 (0 : Fin 1) q) (ix2 (0 : Fin 8) q)
      (fun a => match a with
        | ⟨0, _⟩ => by show (0 : Nat) = 0 + 0; rfl
        | ⟨1, _⟩ => by show q.val = 0 + q.val; omega)

end Cert.KernelIdeal.Entry

end
-- ==== Proof.KernelDense.lean ====
/-
  The kernel computes `x · W[0]ᵀ + b[0]`.

  The grid has 64 points. Point t stages rows 1024·t … 1024·t + 1023 of the activations, the whole weight matrix and the
  whole bias row (the same block at every point), and writes back rows 1024·t … 1024·t + 1023 of the result. So entry
  (p, q) of the block that point t writes back is the inner product of activation row 1024·t + p with row q of `W[0]`,
  plus `b[0][q]`: exactly entry (1024·t + p, q) of `x · W[0]ᵀ + b[0]`. The 64 row blocks cover the result array
  (row r lies in block r / 1024), so after the run the whole array is that function of the arguments.
-/
import proofs.«169711_j240518168737_2_alg».proof.Proof.Gen.KernelIdeal.Value
import proofs.«169711_j240518168737_2_alg».proof.Proof.Dense
import proofs.«169711_j240518168737_2_alg».proof.Proof.BodyDense
import proofs.«169711_j240518168737_2_alg».proof.Proof.EntryArrays

noncomputable section

open scoped BigOperators

namespace Cert.KernelIdeal.KernelDense

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index maps over the grid: the activations and the result move down one row block per point and stay in
    column block 0; the weights and the bias stay at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's activation block at (p, k) is the activations at row 1024·t + p, column k. -/
theorem activation_block (c : Dev nD) (t : Fin cfg0.N) (p k : Fin 1024) (r : Fin 65536) (hr : r.val = t.val * 1024 + p.val) :
    (iblk m c 0 t : Vec Ideal S1024x1024 .f32) (ix2 p k)
      = (m ((c : Thread nD τ).loc main_arg0) : S65536x1024.Idx → EReal) (ix2 r k) := by
  obtain ⟨e0, e1, -⟩ := block_indices t
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- Every point's weight block is the whole staged matrix. -/
theorem weight_block (c : Dev nD) (t : Fin cfg0.N) (q k : Fin 1024) :
    (iblk m c 1 t : Vec Ideal S1024x1024 .bf16) (ix2 q k) = (V m c main_v4 : S1024x1024.Idx → EReal) (ix2 q k) := by
  obtain ⟨-, -, e0, e1, -⟩ := block_indices t
  unfold iblk
  rw [View.read_apply]
  show V m c main_v4 (((cfg0.win 1).blk t).view.emb (ix2 q k)) = _
  refine congrArg _ (funext fun a => Fin.ext ?_)
  match a with
  | ⟨0, _⟩ => show win0_1.index t (0 : Fin 2) * 1024 + 1 * q.val = q.val; rw [e0]; omega
  | ⟨1, _⟩ => show win0_1.index t (1 : Fin 2) * 1024 + 1 * k.val = k.val; rw [e1]; omega

/-- Every point's bias block is the whole staged row. -/
theorem bias_block (c : Dev nD) (t : Fin cfg0.N) (q : Fin 1024) :
    (iblk m c 2 t : Vec Ideal S1x1024 .f32) (ix2 (0 : Fin 1) q) = (V m c main_v5 : S1x1024.Idx → EReal) (ix2 (0 : Fin 1) q) := by
  obtain ⟨-, -, -, -, e0, e1, -⟩ := block_indices t
  unfold iblk
  rw [View.read_apply]
  show V m c main_v5 (((cfg0.win 2).blk t).view.emb (ix2 (0 : Fin 1) q)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * q.val = q.val; rw [e1]; omega

/-- What the body stores at (p, q), when its three loaded blocks are rows of `X`, adaptor 0 of `W` and adaptor 0 of
    `B`, is entry (r, q) of `X · W[0]ᵀ + B[0]`. -/
theorem stored_is_dense (x : Vec Ideal S1024x1024 .f32) (w : Vec Ideal S1024x1024 .bf16) (bias : Vec Ideal S1x1024 .f32)
    (X : S65536x1024.Idx → EReal) (W : S8x1024x1024.Idx → EReal) (B : S8x1024.Idx → EReal)
    (p q : Fin 1024) (r : Fin 65536)
    (hx : ∀ k : Fin 1024, x (ix2 p k) = X (ix2 r k))
    (hw : ∀ q k : Fin 1024, w (ix2 q k) = W (ix3 (0 : Fin 8) q k))
    (hb : ∀ q : Fin 1024, bias (ix2 (0 : Fin 1) q) = B (ix2 (0 : Fin 8) q)) :
    k0_pay1 (F := Ideal) x w bias (ix2 p q) = Cert.Dense.entry X W B r q := by
  rw [Cert.KernelIdeal.Body.stored_entry, hb]
  unfold Cert.Dense.entry
  refine congrArg (· + _) (Finset.sum_congr rfl fun k _ => ?_)
  rw [hx, hw]

/-- WHAT POINT t WRITES BACK is block t of `x · W[0]ᵀ + b[0]` of the argument arrays. -/
theorem flushed_eq (c : Dev nD) (t : Fin cfg0.N) :
    (dats m 0 c).flushed 3 t = ((cfg0.win 3).blk t).view.read (Elt Ideal)
      (Cert.Dense.out (m ((c : Thread nD τ).loc main_arg0)) (m ((c : Thread nD τ).loc main_arg2)) (m ((c : Thread nD τ).loc main_arg3))) := by
  rw [flushed3]
  unfold out0_3
  rw [View.canon_unit_zero zero_offsets]
  simp only [View.ld_unit_zero (S := S1024x1024) zero_offsets, View.ld_unit_zero (S := S1x1024) zero_offsets]
  funext j
  obtain ⟨p, q, rfl⟩ : ∃ (p q : Fin 1024), j = ix2 p q := ⟨j 0, j 1, eq_ix2 j⟩
  show k0_pay1 (iblk m c 0 t) (iblk m c 1 t) (iblk m c 2 t) (ix2 p q)
    = Cert.Dense.out _ _ _ (((cfg0.win 3).blk t).view.emb (ix2 p q))
  obtain ⟨-, -, -, -, -, -, e0, e1⟩ := block_indices t
  have hN : cfg0.N = 64 := N_0
  have ht : t.val < 64 := hN ▸ t.isLt
  have hp := p.isLt
  have hi : ((cfg0.win 3).blk t).view.emb (ix2 p q) = ix2 (⟨t.val * 1024 + p.val, by omega⟩ : Fin 65536) q :=
    funext fun a => Fin.ext (by
      match a with
      | ⟨0, _⟩ => show win0_3.index t (0 : Fin 2) * 1024 + 1 * p.val = t.val * 1024 + p.val; rw [e0]; omega
      | ⟨1, _⟩ => show win0_3.index t (1 : Fin 2) * 1024 + 1 * q.val = q.val; rw [e1]; omega)
  rw [hi, Cert.Dense.out_ix2]
  exact stored_is_dense (iblk m c 0 t) (iblk m c 1 t) (iblk m c 2 t) _ _ _ p q _
    (fun k => activation_block m c t p k _ rfl)
    (fun q k => (weight_block m c t q k).trans (Cert.KernelIdeal.Entry.weights_entry m c q k))
    (fun q => (bias_block m c t q).trans (Cert.KernelIdeal.Entry.bias_entry m c q))

/-- An index of the result array is in point t's block iff each coordinate is in the block's range on its axis. -/
theorem mem_block (t : Fin cfg0.N) (i : S65536x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v6).slice (win0_3.rect t)).set ↔ _
  rw [View.set_slice_whole, Rect.mem_set_unit]
  exact Iff.rfl

/-- The 64 row blocks cover the result array: row r lies in the block of point r / 1024. -/
theorem covered (i : S65536x1024.Idx) :
    ∃ t : Fin cfg0.N, (cfg0.win 3).flush t = true ∧ i ∈ ((cfg0.win 3).blk t).view.set := by
  have h0 : (i 0).val < 65536 := (i 0).isLt
  have h1 : (i 1).val < 1024 := (i 1).isLt
  have hN : cfg0.N = 64 := N_0
  have hlt : (i 0).val / 1024 < cfg0.N := by rw [hN]; omega
  refine ⟨⟨(i 0).val / 1024, hlt⟩, flush0_3 _, ?_⟩
  rw [mem_block]
  obtain ⟨-, -, -, -, -, -, e0, e1⟩ := block_indices ⟨(i 0).val / 1024, hlt⟩
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win0_3.index ⟨(i 0).val / 1024, hlt⟩ (1 : Fin 2) * 1024 ≤ (i 1).val
      ∧ (i 1).val < win0_3.index ⟨(i 0).val / 1024, hlt⟩ (1 : Fin 2) * 1024 + 1024
    rw [e1]
    omega

/-- THE RESULT ARRAY after the run is `x · W[0]ᵀ + b[0]` of the argument arrays. -/
theorem final (c : Dev nD) : (dats m 0 c).arrAt 3 cfg0.N
    = Cert.Dense.out (m ((c : Thread nD τ).loc main_arg0)) (m ((c : Thread nD τ).loc main_arg2)) (m ((c : Thread nD τ).loc main_arg3)) :=
  (dats m 0 c).arrAt_eq_of_cover 3 _ (fun t _ => flushed_eq m c t) covered

/-- The kernel's run, read: the result at `x · W[0]ᵀ + b[0]`, the arguments unchanged. -/
theorem run : θ_run defs (onTc (τ := τ) (main (F := Ideal))) ⟨m, fun _ => 0, ρ⟩ fun r => ∀ c : Dev nD,
      r.2.mem ((c : Thread nD τ).loc main_v6)
        = Cert.Dense.out (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KernelDense

end
-- ==== Proof.lean ====
/-
  A dense layer with adaptor 0's parameters: `out = x · W[0]ᵀ + b[0]`.

  The kernel tiles the 65536 rows of `x` into 64 blocks of 1024 rows; for each block it multiplies by the transposed
  1024 × 1024 weight matrix of adaptor 0 on the matrix unit, in bf16 into an f32 accumulator that starts at zero, and
  adds the bias row. The reference contracts `x` with `W[0]` over the input feature and adds `b[0]` broadcast
  along the rows. On the extended reals a change of float format is the identity, so both results are, entry by entry,
  the same finite sum of products plus the same bias term (`Cert.Dense.out`): the kernel's by reading each block it
  writes back and covering the array with the 64 blocks, the reference's by reading its host operations at an index.
  The sum is taken in the same order on both sides and nothing is cancelled or distributed, so the equality holds at
  the infinities too and the finiteness of the inputs is not used.

  The three frame claims are the generated frame runs (the reference's is its run with the result dropped); the
  idealization rewrote no operation, so its preservation claim is trivial.
-/
import proofs.«169711_j240518168737_2_alg».proof.Defs
import proofs.«169711_j240518168737_2_alg».proof.Proof.Gen.Kernel
import proofs.«169711_j240518168737_2_alg».proof.Proof.Gen.Kernel.Skeleton
import proofs.«169711_j240518168737_2_alg».proof.Proof.Gen.Kernel.Launch
import proofs.«169711_j240518168737_2_alg».proof.Proof.Gen.Kernel.Points
import proofs.«169711_j240518168737_2_alg».proof.Proof.Gen.Kernel.Frame
import proofs.«169711_j240518168737_2_alg».proof.Proof.Gen.KernelIdeal
import proofs.«169711_j240518168737_2_alg».proof.Proof.Gen.KernelIdeal.Skeleton
import proofs.«169711_j240518168737_2_alg».proof.Proof.Gen.KernelIdeal.Launch
import proofs.«169711_j240518168737_2_alg».proof.Proof.Gen.KernelIdeal.Points
import proofs.«169711_j240518168737_2_alg».proof.Proof.Gen.KernelIdeal.Frame
import proofs.«169711_j240518168737_2_alg».proof.Proof.Gen.ReferenceIdeal
import proofs.«169711_j240518168737_2_alg».proof.Proof.Gen.Pre_finite_inputs
import proofs.«169711_j240518168737_2_alg».proof.Proof.Gen.KernelIdeal.Value
import proofs.«169711_j240518168737_2_alg».proof.Proof.Gen.ReferenceIdeal.Run
import proofs.«169711_j240518168737_2_alg».proof.Proof.Gen.ReferenceIdeal.Read
import proofs.«169711_j240518168737_2_alg».proof.Proof.Dense
import proofs.«169711_j240518168737_2_alg».proof.Proof.RefDense
import proofs.«169711_j240518168737_2_alg».proof.Proof.KernelDense
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result array at `x · W[0]ᵀ + b[0]` of the
    kernel's arguments: the kernel by its blocks, the reference by its operations read at an index. -/
theorem algebraic : Cert.algebraic_KernelIdeal_ReferenceIdeal := by
  intro m ρ m' ρ' _ hagree
  refine ⟨fun c => Cert.Dense.out (m (c.tc.loc Cert.KernelIdeal.main_arg0)) (m (c.tc.loc Cert.KernelIdeal.main_arg2))
      (m (c.tc.loc Cert.KernelIdeal.main_arg3)), Cert.KernelIdeal.KernelDense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefDense.result_eq,
    (hagree c).1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
